-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x56x56x256 : Shape := ⟨4, ![64, 56, 56, 256]⟩
abbrev S_ : Shape := ⟨0, ![]⟩

class Facts : Prop where
  bcast_S_S64x56x56x256 : S_.BroadcastsInDim S64x56x56x256 (![] : Fin 0 → Fin S64x56x56x256.rank)
  reducesTo_S64x56x56x256_S_d0_1_2_3 : S64x56x56x256.ReducesTo [0, 1, 2, 3] S_
  h_S_ : 0 < S_.numel

variable [Facts]

def fn {F : FTy → Type} [FloatOps F] (main_arg0 : FVec F S64x56x56x256 .f32) : IVec S_ 1 :=
  let main_v0 : FVec F S64x56x56x256 .f32 := Host.absf main_arg0
  let main_cst : FVec F S_ .f32 := constant S_ .f32 0x7F800000#32
  let main_v1 : FVec F S64x56x56x256 .f32 := broadcastInDim S64x56x56x256 ![] bcast_S_S64x56x56x256 main_cst
  let main_v2 : IVec S64x56x56x256 1 := cmpf .olt main_v0 main_v1
  let main_c : IVec S_ 1 := constantI S_ 1 1#1
  let main_v3 : IVec S_ 1 := (fun x v => Host.reduce IntOp.andi x v reducesTo_S64x56x56x256_S_d0_1_2_3 h_S_) main_v2 main_c
  main_v3
-- ==== Kernel.lean ====
abbrev S64x56x56x256 : Shape := ⟨4, ![64, 56, 56, 256]⟩
abbrev S64x3136x256 : Shape := ⟨3, ![64, 3136, 256]⟩
abbrev S64x256 : Shape := ⟨2, ![64, 256]⟩
abbrev S8x1568x256 : Shape := ⟨3, ![8, 1568, 256]⟩
abbrev S8x256 : Shape := ⟨2, ![8, 256]⟩
abbrev S8x392x256 : Shape := ⟨3, ![8, 392, 256]⟩

abbrev nBuf : Space → Nat
  | .hbm => 3
  | .vmem => 4
  | .smem => 0
  | _ => 0

abbrev bufTy : (tb : Table) → Fin (tcTables nBuf tb) → BufTy
  | .hbm, ⟨0, _⟩ => ⟨S64x56x56x256, .f32⟩
  | .hbm, ⟨1, _⟩ => ⟨S64x3136x256, .f32⟩
  | .hbm, ⟨2, _⟩ => ⟨S64x256, .f32⟩
  | .local _ .vmem, ⟨0, _⟩ => ⟨S8x1568x256, .f32⟩
  | .local _ .vmem, ⟨1, _⟩ => ⟨S8x1568x256, .f32⟩
  | .local _ .vmem, ⟨2, _⟩ => ⟨S8x256, .f32⟩
  | .local _ .vmem, ⟨3, _⟩ => ⟨S8x256, .f32⟩
  | _, _ => ⟨S64x56x56x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32_2 : BitVec 32 := 0#32
  let c4_i32 : BitVec 32 := 4#32
  let v5 : BitVec 32 := Scalar.addi c0_i32_2 c4_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg4 : BitVec 32 := Scf.iv c0_i32_2 c1_i32 k0_t1
  let c392_i32 : BitVec 32 := 392#32
  let v8 : BitVec 32 := Scalar.muli arg4 c392_i32
  v8
def k0_off1 (k0_t1 : Fin k0_t1_loop.trips) : Fin 3 → Nat :=
  let c0_6 : Index := 0#32
  let c0_i32_2 : BitVec 32 := 0#32
  let c1_i32 : BitVec 32 := 1#32
  let arg4 : BitVec 32 := Scf.iv c0_i32_2 c1_i32 k0_t1
  let c392_i32 : BitVec 32 := 392#32
  let v8 : BitVec 32 := Scalar.muli arg4 c392_i32
  let v9 : BitVec 32 := v8
  let v10 : Index := Scalar.indexCast v9
  let c0_7 : Index := 0#32
  ![0, v10.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1568x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S64x56x56x256_S64x3136x256 : S64x56x56x256.ShapeCasts S64x3136x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  h_S8x392x256 : 0 < S8x392x256.numel
  shapeCasts_S8x392x256_S8x392x256 : S8x392x256.ShapeCasts S8x392x256
  reduces_S8x392x256_S8x256 : S8x392x256.Reduces [1] S8x256
  hrank0 : 0 < grid0.rank
  k0_t1_ok : k0_t1_loop.OK
  k0_mult1_dvd : ∀ k0_t1 : Fin k0_t1_loop.trips, 392 ∣ (k0_mult1 k0_t1).toNat
  k0_off1_inb : ∀ k0_t1 : Fin k0_t1_loop.trips, ∀ a, (k0_off1 k0_t1) a + S8x392x256.size a ≤ S8x1568x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1568x256.size a ≤ S64x3136x256.size a
  hwx0_0 : ∀ i : grid0.Coords, EltTy.bits .f32 = 32 ∨ (Rect.block (s := S64x3136x256) S8x1568x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S64x256.size a
  hwx0_1 : ∀ i : grid0.Coords, EltTy.bits .f32 = 32 ∨ (Rect.block (s := S64x256) S8x256.size (cc0_transform_1 i) (hinb0_1 i)).WholeWords (EltTy.packing .f32)

variable [Facts₀]

abbrev win0_0 : Pipeline.Window sig grid0 :=
  Pipeline.Window.ofSpec (Memref.whole main_v0) S8x1568x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x56x56x256 : Shape := ⟨4, ![64, 56, 56, 256]⟩
abbrev S_ : Shape := ⟨0, ![]⟩
abbrev S64x256 : Shape := ⟨2, ![64, 256]⟩

abbrev nBuf : Space → Nat
  | .hbm => 3
  | .vmem => 0
  | .smem => 0
  | _ => 0

abbrev bufTy : (tb : Table) → Fin (tcTables nBuf tb) → BufTy
  | .hbm, ⟨0, _⟩ => ⟨S64x56x56x256, .f32⟩
  | .hbm, ⟨1, _⟩ => ⟨S_, .f32⟩
  | .hbm, ⟨2, _⟩ => ⟨S64x256, .f32⟩
  | _, _ => ⟨S64x56x56x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S64x56x56x256_S64x256_d1_2 : S64x56x56x256.ReducesTo [1, 2] S64x256
  h_S_ : 0 < S_.numel

variable [Facts₀]

class Facts : Prop extends Facts₀ where

variable [Facts]
-- ==== Proof.Pooled.lean ====
/-
  Global max pooling, stated once on the extended reals.

  For an input x[b, h, w, c] of shape [64, 56, 56, 256], the pooled value at (b, c) is the least upper bound of the
  56 · 56 entries x[b, ·, ·, c].  Every maximum that either program computes is determined by the set of its upper
  bounds: an iterated binary `max`, started from -∞, is below z exactly when every entry it has absorbed is below z.
  Two extended reals with the same upper bounds are equal, so no order of evaluation, grouping or tiling matters, and
  no finiteness of the entries is needed.
-/
import Idealize.ShloMosaic.PureOps.Ideal.Laws
import Idealize.ShloMosaic.Lib.ValueIdx

noncomputable section

namespace Cert.MaxPool

open Idealize.ShloMosaic Idealize.ShloMosaic.ValueIdx

/-- The input's shape [64, 56, 56, 256] and the result's [64, 256]. -/
abbrev Sin : Shape := ⟨4, ![64, 56, 56, 256]⟩
abbrev Sout : Shape := ⟨2, ![64, 256]⟩

/-- Two extended reals with the same upper bounds are equal. -/
theorem eq_of_bounds {a b : EReal} (h : ∀ z, a ≤ z ↔ b ≤ z) : a = b := eq_of_forall_ge_iff h

/-- The f32 word of -∞ is the bottom of the extended reals. -/
theorem negInf_eq_bot : Ideal.ofBits .f32 0xFF800000#32 = (⊥ : EReal) := by simp [Ideal.ofBits, Ideal.ieee]

/-- The pooled value at (b, c): the supremum over the spatial positions (h, w). -/
def pooled (x : Sin.Idx → EReal) (j : Sout.Idx) : EReal :=
  ⨆ p : Fin 56 × Fin 56, x (ix4 (j 0) p.1 p.2 (j 1))

/-- Its upper bounds are the common upper bounds of the 56 · 56 entries. -/
theorem pooled_le_iff (x : Sin.Idx → EReal) (j : Sout.Idx) (z : EReal) :
    pooled x j ≤ z ↔ ∀ (h w : Fin 56), x (ix4 (j 0) h w (j 1)) ≤ z := by
  unfold pooled
  rw [iSup_le_iff]
  exact ⟨fun H h w => H (h, w), fun H p => H p.1 p.2⟩

/-- A spatial position (h, w) is the flat position 56 · h + w below 3136, and every flat position below 3136 is
    one: quantifying over one is quantifying over the other. -/
theorem forall_flat_iff (P : Fin 56 → Fin 56 → Prop) :
    (∀ (h w : Fin 56), P h w) ↔
      ∀ (s : ℕ) (hs : s < 3136), P ⟨s / 56, by omega⟩ ⟨s % 56, Nat.mod_lt _ (by decide)⟩ := by
  constructor
  · intro H s hs; exact H _ _
  · intro H h w
    have := H (56 * h.val + w.val) (by have := h.isLt; have := w.isLt; omega)
    have e1 : (56 * h.val + w.val) / 56 = h.val := by have := w.isLt; omega
    have e2 : (56 * h.val + w.val) % 56 = w.val := by have := w.isLt; omega
    simpa only [e1, e2, Fin.eta] using this

end Cert.MaxPool

end
-- ==== Proof.Chunks.lean ====
/-
  The kernel body's strip-mined maximum, read through its upper bounds.

  At one grid point the body holds an input block x[8, 1568, 256] and a running maximum acc[8, 256].  It cuts the
  1568 positions of the block into four chunks of 392, takes each chunk's maximum over its positions (started from
  -∞) and folds it into the running maximum with a binary `max`.  An extended real z is an upper bound of the
  result at (r, c) exactly when it bounds the running maximum the body started from and every entry x[r, s, c] of the
  chunks absorbed so far.  After the fourth chunk these are all 1568 positions of the block.
-/
import proofs.«102553_j22754736734795_2_alg».proof.Proof.Pooled
import proofs.«102553_j22754736734795_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Chunks

open Cert.KernelIdeal Cert.KernelIdeal.Gen Cert.MaxPool Idealize.ShloMosaic.ValueIdx

/-- One chunk's maximum over its 392 positions, started from -∞, is below z exactly when every entry of the
    chunk's column (r, ·, c) is. -/
theorem chunk_max_le_iff (v : FVec Ideal S8x392x256 .f32) (h : S8x392x256.Reduces [1] S8x256) (hφ : FKind.Formats .f32)
    (hacc : (0xFF800000#32 : BitVec 32) = FKind.maximumf.neutral .f32 hφ) (r : Fin 8) (c : Fin 256) (z : EReal) :
    multiReduction .maximumf [1] S8x256 v 0xFF800000#32 h hφ hacc (ix2 r c) ≤ z ↔ ∀ s : Fin 392, v (ix3 r s c) ≤ z := by
  rw [Ideal.multiReduction_maximumf_single v 0xFF800000#32 h hφ hacc (ix2 r c), Finset.fold_max_le]
  have hb : FloatOps.ofBits (F := Ideal) .f32 0xFF800000#32 ≤ z := by
    show Ideal.ofBits .f32 0xFF800000#32 ≤ z
    rw [negInf_eq_bot]; exact bot_le
  have hl : ∀ s : Fin 392, h.lift (ix2 r c) s = ix3 r s c := fun s => by
    funext a; apply Fin.ext
    match a with
    | ⟨0, _⟩ => rfl
    | ⟨1, _⟩ => rfl
    | ⟨2, _⟩ => rfl
  constructor
  · intro H s
    exact le_of_eq_of_le (congrArg v (hl s)).symm (H.2 s (Finset.mem_univ _))
  · intro H
    refine ⟨hb, fun s _ => ?_⟩
    exact le_of_eq_of_le (congrArg v (hl s)) (H s)

/-- One trip's arithmetic: the new running maximum at (r, c) is the old one joined with the chunk's column maximum. -/
theorem pay3_le_iff (acc : FVec Ideal S8x256 .f32) (v : Vec Ideal S8x392x256 .f32) (r : Fin 8) (c : Fin 256) (z : EReal) :
    k0_pay3 acc v (ix2 r c) ≤ z ↔ acc (ix2 r c) ≤ z ∧ ∀ s : Fin 392, v (ix3 r s c) ≤ z := by
  unfold k0_pay3
  rw [maximumf_apply, max_le_iff, shapeCast_self]
  exact and_congr Iff.rfl (chunk_max_le_iff v _ _ _ r c z)

/-- The loop has four trips. -/
theorem trips_eq : k0_t1_loop.trips = 4 := by decide +kernel

/-- Trip k reads the chunk of positions 392·k … 392·k + 391 of the block: entry (r, s, c) of the chunk is entry
    (r, 392·k + s, c) of the block. -/
theorem chunk_apply (x : Vec Ideal S8x1568x256 .f32) (k : Fin k0_t1_loop.trips) (r : Fin 8) (s : Fin 392) (c : Fin 256)
    (hs : 392 * k.val + s.val < 1568) :
    View.ld x (Rect.unit (k0_off1 k) S8x392x256.size (k0_off1_inb k)) (ix3 r s c) = x (ix3 r ⟨392 * k.val + s.val, hs⟩ c) := by
  refine congrArg x (funext fun a => Fin.ext ?_)
  have e := k0_off1_eq k
  match a with
  | ⟨0, _⟩ => show k0_off1 k 0 + 1 * r.val = r.val; rw [e]; show 0 + 1 * r.val = r.val; omega
  | ⟨1, _⟩ => show k0_off1 k 1 + 1 * s.val = 392 * k.val + s.val; rw [e]; show 392 * k.val + 1 * s.val = _; omega
  | ⟨2, _⟩ => show k0_off1 k 2 + 1 * c.val = c.val; rw [e]; show 0 + 1 * c.val = c.val; omega

/-- What trip k makes of the running maximum: the trip's arithmetic applied to the chunk of the block that the trip
    loads. -/
theorem tripR_eq (𝒱 : Variants) (c : Dev nD) (bd : Option 𝒱.V) (i : grid0.Coords)
    (a1 : Memref sig .tc .vmem S8x1568x256 .f32) (h1 : a1.IsWhole) (a2 : Memref sig .tc .vmem S8x256 .f32) (h2 : a2.IsWhole)
    (x : Vec Ideal S8x1568x256 .f32) (k : Fin k0_t1_loop.trips) (acc : FVec Ideal S8x256 .f32) :
    tripR_k0_t1 (F := Ideal) 𝒱 c bd i a1 h1 a2 h2 (h1.unread x) k acc
      = k0_pay3 acc (View.ld x (Rect.unit (k0_off1 k) S8x392x256.size (k0_off1_inb k))) := by
  unfold tripR_k0_t1 trip_k0_t1
  dsimp only
  rw [View.readAt_eq_ld, h1.read_unread]

/-- One trip, by upper bounds: z bounds the new running maximum at (r, c) exactly when it bounds the old one and the
    entries (r, s, c) of the block with 392·k ≤ s < 392·(k + 1). -/
theorem trip_le_iff (𝒱 : Variants) (c : Dev nD) (bd : Option 𝒱.V) (i : grid0.Coords)
    (a1 : Memref sig .tc .vmem S8x1568x256 .f32) (h1 : a1.IsWhole) (a2 : Memref sig .tc .vmem S8x256 .f32) (h2 : a2.IsWhole)
    (x : Vec Ideal S8x1568x256 .f32) (k : Fin k0_t1_loop.trips) (acc : FVec Ideal S8x256 .f32) (r : Fin 8) (cc : Fin 256) (z : EReal) :
    tripR_k0_t1 (F := Ideal) 𝒱 c bd i a1 h1 a2 h2 (h1.unread x) k acc (ix2 r cc) ≤ z ↔
      acc (ix2 r cc) ≤ z ∧ ∀ (s : ℕ) (hs : s < 1568), 392 * k.val ≤ s → s < 392 * (k.val + 1) → x (ix3 r ⟨s, hs⟩ cc) ≤ z := by
  have hk : k.val < 4 := lt_of_lt_of_eq k.isLt trips_eq
  rw [tripR_eq, pay3_le_iff]
  refine and_congr Iff.rfl ⟨fun H s hs h0 h1' => ?_, fun H s => ?_⟩
  · have := H ⟨s - 392 * k.val, by omega⟩
    rw [chunk_apply x k r _ cc (by simp only; omega)] at this
    have e : (⟨392 * k.val + (s - 392 * k.val), by omega⟩ : Fin 1568) = ⟨s, hs⟩ := Fin.ext (by simp only; omega)
    rwa [e] at this
  · rw [chunk_apply x k r s cc (by have := s.isLt; omega)]
    exact H _ _ (by omega) (by have := s.isLt; omega)

/-- The loop after n trips, by upper bounds: z bounds the carried value at (r, c) exactly when it bounds the value the
    loop started from and the entries (r, s, c) of the block with s < 392·n. -/
theorem st_le_iff (𝒱 : Variants) (c : Dev nD) (bd : Option 𝒱.V) (i : grid0.Coords)
    (a1 : Memref sig .tc .vmem S8x1568x256 .f32) (h1 : a1.IsWhole) (a2 : Memref sig .tc .vmem S8x256 .f32) (h2 : a2.IsWhole)
    (x : Vec Ideal S8x1568x256 .f32) (init : FVec Ideal S8x256 .f32) (r : Fin 8) (cc : Fin 256) (z : EReal) :
    ∀ n : ℕ, n ≤ 4 →
      (st_k0_t1 (F := Ideal) 𝒱 c bd i a1 h1 a2 h2 (h1.unread x) init n (ix2 r cc) ≤ z ↔
        init (ix2 r cc) ≤ z ∧ ∀ (s : ℕ) (hs : s < 1568), s < 392 * n → x (ix3 r ⟨s, hs⟩ cc) ≤ z)
  | 0, _ => by
    rw [st_k0_t1_zero]
    exact ⟨fun H => ⟨H, fun s _ h0 => absurd h0 (by omega)⟩, fun H => H.1⟩
  | n + 1, hn => by
    have e := st_k0_t1_succ (F := Ideal) 𝒱 c bd i a1 h1 a2 h2 (h1.unread x) init ⟨n, by rw [trips_eq]; omega⟩
    rw [show (⟨n, by rw [trips_eq]; omega⟩ : Fin k0_t1_loop.trips).val + 1 = n + 1 from rfl] at e
    rw [e, trip_le_iff, st_le_iff 𝒱 c bd i a1 h1 a2 h2 x init r cc z n (by omega)]
    constructor
    · rintro ⟨⟨H0, H1⟩, H2⟩
      refine ⟨H0, fun s hs hlt => ?_⟩
      by_cases hc : s < 392 * n
      · exact H1 s hs hc
      · exact H2 s hs (by simp only; omega) (by simp only; omega)
    · rintro ⟨H0, H1⟩
      exact ⟨⟨H0, fun s hs hlt => H1 s hs (by omega)⟩, fun s hs _ hlt => H1 s hs (by simp only at hlt; omega)⟩

end Cert.KernelIdeal.Chunks

end
-- ==== Proof.Cases.lean ====
/-
  What one grid point leaves in the output block, by upper bounds.

  A grid point (i, k) holds the input block of batch tile i and spatial tile k.  At k = 0 the body first fills the
  output block with -∞ and then runs the four-chunk loop from that; at k = 1 it runs the loop from what the block
  already holds.  So at k = 0 the block ends at the column maxima of the input block alone, and at k = 1 at the join
  of its previous contents with them.
-/
import proofs.«102553_j22754736734795_2_alg».proof.Proof.Chunks

noncomputable section

open Idealize.ShloMosaic Idealize.ShloMosaic.TcCoe Idealize.SL.Sem

namespace Cert.KernelIdeal.Cases

open Cert.KernelIdeal Cert.KernelIdeal.Gen Cert.KernelIdeal.Chunks Cert.MaxPool Idealize.ShloMosaic.ValueIdx

theorem hz : (![0, 0] : Fin 2 → Nat) = fun _ => 0 := funext fun a => by fin_cases a <;> rfl

/-- At a point with k = 1 the block ends at the loop's result started from the block's previous contents. -/
theorem out_B_eq (c : Dev nD) (i : grid0.Coords) (a1 : Memref sig .tc .vmem S8x1568x256 .f32) (h1 : a1.IsWhole)
    (a2 : Memref sig .tc .vmem S8x256 .f32) (h2 : a2.IsWhole) (hc : ¬cond0_0 i)
    (x : Vec Ideal S8x1568x256 .f32) (xo : Vec Ideal S8x256 .f32) :
    out0_B_1 (F := Ideal) c i a1 h1 a2 h2 hc x xo
      = st_k0_t1 (F := Ideal) Variants.none c none i a1 h1 a2 h2 (h1.unread x) xo k0_t1_loop.trips := by
  unfold out0_B_1
  rw [View.read_writes_eq_canon _ _ _ (cover0_B_1 c i a1 h1 a2 h2 hc x xo)]
  unfold kernelRun0_B
  dsimp only
  rw [View.canon_unit_zero hz]
  unfold k0_pay2
  simp only [View.readAt_eq_ld, h2.read_unread, View.ld_unit_zero (S := S8x256) hz, shapeCast_self]

/-- At a point with k = 0 the block ends at the loop's result started from the -∞ block. -/
theorem out_A_eq (c : Dev nD) (i : grid0.Coords) (a1 : Memref sig .tc .vmem S8x1568x256 .f32) (h1 : a1.IsWhole)
    (a2 : Memref sig .tc .vmem S8x256 .f32) (h2 : a2.IsWhole) (hc : cond0_0 i) (x : Vec Ideal S8x1568x256 .f32) :
    out0_A_1 (F := Ideal) c i a1 h1 a2 h2 hc x
      = st_k0_t1 (F := Ideal) Variants.none c none i a1 h1 a2 h2 (h1.unread x) (k0_pay1 (F := Ideal)) k0_t1_loop.trips := by
  unfold out0_A_1
  rw [View.read_writes_eq_canon _ _ _ (cover0_A_1 c i a1 h1 a2 h2 hc x)]
  unfold kernelRun0_A
  dsimp only
  sl_unfold_words
  rw [View.canon_cons_unit_zero (S := S8x256) hz, View.readCov_unit_zero (S := S8x256) _ hz]
  unfold k0_pay2
  rw [shapeCast_self]

/-- k = 1, by upper bounds: z bounds the block's new entry (r, c) exactly when it bounds the previous entry and the
    whole column (r, ·, c) of the input block. -/
theorem out_B_le_iff (c : Dev nD) (i : grid0.Coords) (a1 : Memref sig .tc .vmem S8x1568x256 .f32) (h1 : a1.IsWhole)
    (a2 : Memref sig .tc .vmem S8x256 .f32) (h2 : a2.IsWhole) (hc : ¬cond0_0 i)
    (x : Vec Ideal S8x1568x256 .f32) (xo : Vec Ideal S8x256 .f32) (r : Fin 8) (cc : Fin 256) (z : EReal) :
    out0_B_1 (F := Ideal) c i a1 h1 a2 h2 hc x xo (ix2 r cc) ≤ z ↔
      xo (ix2 r cc) ≤ z ∧ ∀ (s : ℕ) (hs : s < 1568), x (ix3 r ⟨s, hs⟩ cc) ≤ z := by
  rw [out_B_eq, trips_eq, st_le_iff Variants.none c none i a1 h1 a2 h2 x xo r cc z 4 (le_refl 4)]
  exact and_congr Iff.rfl ⟨fun H s hs => H s hs (by omega), fun H s hs _ => H s hs⟩

/-- k = 0, by upper bounds: z bounds the block's entry (r, c) exactly when it bounds the whole column (r, ·, c) of the
    input block (the -∞ the loop started from is below everything). -/
theorem out_A_le_iff (c : Dev nD) (i : grid0.Coords) (a1 : Memref sig .tc .vmem S8x1568x256 .f32) (h1 : a1.IsWhole)
    (a2 : Memref sig .tc .vmem S8x256 .f32) (h2 : a2.IsWhole) (hc : cond0_0 i)
    (x : Vec Ideal S8x1568x256 .f32) (r : Fin 8) (cc : Fin 256) (z : EReal) :
    out0_A_1 (F := Ideal) c i a1 h1 a2 h2 hc x (ix2 r cc) ≤ z ↔ ∀ (s : ℕ) (hs : s < 1568), x (ix3 r ⟨s, hs⟩ cc) ≤ z := by
  rw [out_A_eq, trips_eq, st_le_iff Variants.none c none i a1 h1 a2 h2 x _ r cc z 4 (le_refl 4)]
  have hb : k0_pay1 (F := Ideal) (ix2 r cc) ≤ z := by
    show Ideal.ofBits .f32 0xFF800000#32 ≤ z
    rw [negInf_eq_bot]; exact bot_le
  exact ⟨fun H s hs => H.2 s hs (by omega), fun H => ⟨hb, fun s hs _ => H s hs⟩⟩

end Cert.KernelIdeal.Cases

end
-- ==== Proof.Blocks.lean ====
/-
  From grid points to the result array.

  The grid has 16 points t = 2·q + k: q = t / 2 the batch tile (rows 8·q … 8·q + 7 of the 64), k = t mod 2 the spatial
  tile (positions 1568·k … 1568·k + 1567 of the 3136).  The input block at t is the array y[64, 3136, 256] (the input
  with its two spatial axes flattened) restricted to those rows and positions.  The output block of batch tile q is
  written back after the point with k = 1 only.  There it holds, at (r, c), the least upper bound of the two input
  blocks' columns, that is of y[8·q + r, s, c] over all 3136 positions s.  The eight written blocks tile the result
  array, so the result array is the column maximum of y at every index.
-/
import proofs.«102553_j22754736734795_2_alg».proof.Proof.Cases
import proofs.«102553_j22754736734795_2_alg».proof.Proof.Gen.KernelIdeal.Value

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Cases Cert.MaxPool Idealize.ShloMosaic.ValueIdx

variable (m : (ℓ : Loc nD τ sig) → Buf (Elt Ideal) ℓ) (ρ : Dev nD → PrngReg)

/-- The column maximum of an array y[64, 3136, 256] over its middle axis. -/
def colmax (y : S64x3136x256.Idx → EReal) (j : S64x256.Idx) : EReal := ⨆ s : Fin 3136, y (ix3 (j 0) s (j 1))

theorem colmax_le_iff (y : S64x3136x256.Idx → EReal) (j : S64x256.Idx) (z : EReal) :
    colmax y j ≤ z ↔ ∀ (s : ℕ) (hs : s < 3136), y (ix3 (j 0) ⟨s, hs⟩ (j 1)) ≤ z := by
  unfold colmax
  rw [iSup_le_iff]
  exact ⟨fun H s hs => H ⟨s, hs⟩, fun H s => H s.val s.isLt⟩

/-- The flattened input y[64, 3136, 256] as the kernel's launch finds it, the input block at point t, and the output block
    after point t, as arrays of extended reals. -/
abbrev flat (c : Dev nD) : S64x3136x256.Idx → EReal := V m c main_v0
abbrev inblk (c : Dev nD) (t : Fin cfg0.N) : S8x1568x256.Idx → EReal := iblk m c 0 t
abbrev outblk (c : Dev nD) (t : Fin cfg0.N) : S8x256.Idx → EReal := outsAt0 m c t.val t.isLt

/-- The block indices at point t: the input's is (t / 2, t mod 2, 0), the output's (t / 2, 0). -/
theorem idx_facts : ∀ t : Fin cfg0.N, win0_0.index t (0 : Fin 3) = t.val / 2 ∧ win0_0.index t (1 : Fin 3) = t.val % 2
    ∧ win0_0.index t (2 : Fin 3) = 0 ∧ win0_1.index t (0 : Fin 2) = t.val / 2 ∧ win0_1.index t (1 : Fin 2) = 0 :=
  (by decide +kernel : ∀ t : Fin grid0.N, _)

/-- The input block at point t, entry (r, s, c), is y[b, p, c] with b = 8·(t / 2) + r and p = 1568·(t mod 2) + s. -/
theorem iblk_apply (c : Dev nD) (t : Fin cfg0.N) (r : Fin 8) (s : Fin 1568) (cc : Fin 256) (b : Fin 64) (p : Fin 3136)
    (hb : b.val = 8 * (t.val / 2) + r.val) (hp : p.val = 1568 * (t.val % 2) + s.val) :
    inblk m c t (ix3 r s cc) = flat m c (ix3 b p cc) := by
  obtain ⟨e0, e1, e2, -, -⟩ := idx_facts t
  unfold inblk flat iblk
  rw [View.read_apply]
  show V m c main_v0 _ = V m c main_v0 _
  refine congrArg _ (funext fun a => Fin.ext ?_)
  match a with
  | ⟨0, _⟩ => show win0_0.index t 0 * 8 + 1 * r.val = b.val; rw [e0]; omega
  | ⟨1, _⟩ => show win0_0.index t 1 * 1568 + 1 * s.val = p.val; rw [e1]; omega
  | ⟨2, _⟩ => show win0_0.index t 2 * 256 + 1 * cc.val = cc.val; rw [e2]; omega

/-- After a point t with t mod 2 = 1, z bounds the output block's entry (r, c) exactly when it bounds y[b, s, c] for
    all 3136 positions s, where b = 8·(t / 2) + r: the point before (same batch tile, spatial tile 0) contributed the
    first 1568 positions from -∞, and this point joined the other 1568. -/
theorem odd_le_iff (c : Dev nD) (t : Fin cfg0.N) (hodd : t.val % 2 = 1) (r : Fin 8) (cc : Fin 256) (b : Fin 64)
    (hb : b.val = 8 * (t.val / 2) + r.val) (z : EReal) :
    outblk m c t (ix2 r cc) ≤ z ↔ ∀ (s : ℕ) (hs : s < 3136), flat m c (ix3 b ⟨s, hs⟩ cc) ≤ z := by
  have h0 : ¬t.val % 2 = 0 := by omega
  have hlt : t.val - 1 < cfg0.N := Nat.lt_of_le_of_lt (Nat.sub_le _ _) t.isLt
  have hev : (⟨t.val - 1, hlt⟩ : Fin cfg0.N).val % 2 = 0 := by show (t.val - 1) % 2 = 0; omega
  have eA : outsAt0 m c (t.val - 1) hlt = _ := outsAt0_A m c ⟨t.val - 1, hlt⟩ hev
  unfold outblk
  rw [outsAt0_B m c t h0, out_B_le_iff, eA, out_A_le_iff]
  show ((∀ (s : ℕ) (hs : s < 1568), inblk m c ⟨t.val - 1, hlt⟩ (ix3 r ⟨s, hs⟩ cc) ≤ z)
      ∧ ∀ (s : ℕ) (hs : s < 1568), inblk m c t (ix3 r ⟨s, hs⟩ cc) ≤ z) ↔ _
  constructor
  · rintro ⟨HA, HB⟩ s hs
    by_cases hc : s < 1568
    · exact le_of_eq_of_le (iblk_apply m c ⟨t.val - 1, hlt⟩ r ⟨s, hc⟩ cc b ⟨s, hs⟩
        (by show b.val = 8 * ((t.val - 1) / 2) + r.val; omega) (by show s = 1568 * ((t.val - 1) % 2) + s; omega)).symm (HA s hc)
    · exact le_of_eq_of_le (iblk_apply m c t r ⟨s - 1568, by omega⟩ cc b ⟨s, hs⟩ hb
        (by show s = 1568 * (t.val % 2) + (s - 1568); omega)).symm (HB (s - 1568) (by omega))
  · intro H
    refine ⟨fun s hs => ?_, fun s hs => ?_⟩
    · exact le_of_eq_of_le (iblk_apply m c ⟨t.val - 1, hlt⟩ r ⟨s, hs⟩ cc b ⟨s, by omega⟩
        (by show b.val = 8 * ((t.val - 1) / 2) + r.val; omega) (by show s = 1568 * ((t.val - 1) % 2) + s; omega)) (H s (by omega))
    · exact le_of_eq_of_le (iblk_apply m c t r ⟨s, hs⟩ cc b ⟨1568 + s, by omega⟩ hb
        (by show 1568 + s = 1568 * (t.val % 2) + s; omega)) (H (1568 + s) (by omega))

/-- What a writing point t writes back is block t of the column maximum of y. -/
theorem flushed_eq (c : Dev nD) (t : Fin cfg0.N) (hf : (cfg0.win 1).flush t = true) :
    (dats m 0 c).flushed 1 t = ((cfg0.win 1).blk t).view.read (Elt Ideal) (colmax (flat m c)) := by
  have hodd : t.val % 2 = 1 := (flush0_1 t).mp hf
  have hN : t.val < 16 := lt_of_lt_of_eq t.isLt (show cfg0.N = 16 from N_0)
  obtain ⟨-, -, -, e3, e4⟩ := idx_facts t
  rw [Value.flushed1]
  funext j
  have hj0 : (j 0).val < 8 := (j 0).isLt
  have hj1 : (j 1).val < 256 := (j 1).isLt
  have hemb : ((cfg0.win 1).blk t).view.emb j = ix2 (⟨8 * (t.val / 2) + (j 0).val, by omega⟩ : Fin 64) (⟨(j 1).val, hj1⟩ : Fin 256) := by
    funext a; apply Fin.ext
    match a with
    | ⟨0, _⟩ => show win0_1.index t 0 * 8 + 1 * (j 0).val = 8 * (t.val / 2) + (j 0).val; rw [e3]; omega
    | ⟨1, _⟩ => show win0_1.index t 1 * 256 + 1 * (j 1).val = (j 1).val; rw [e4]; omega
  have hx : (cfg0.win 1).xinj (grid0.coords t) j = ix2 (⟨(j 0).val, hj0⟩ : Fin 8) (⟨(j 1).val, hj1⟩ : Fin 256) := by
    funext a; apply Fin.ext
    match a with
    | ⟨0, _⟩ => rfl
    | ⟨1, _⟩ => rfl
  show outblk m c t ((cfg0.win 1).xinj (grid0.coords t) j) = colmax (flat m c) (((cfg0.win 1).blk t).view.emb j)
  rw [hx, hemb]
  refine eq_of_bounds fun z => ?_
  rw [odd_le_iff m c t hodd ⟨(j 0).val, hj0⟩ ⟨(j 1).val, hj1⟩ ⟨8 * (t.val / 2) + (j 0).val, by omega⟩ rfl z, colmax_le_iff]

/-- Every index (b, c) of the result array lies in the block written back at point 2·(b / 8) + 1. -/
theorem cover (i : S64x256.Idx) : ∃ t : Fin cfg0.N, (cfg0.win 1).flush t = true ∧ i ∈ ((cfg0.win 1).blk t).view.set := by
  have hi0 : (i 0).val < 64 := (i 0).isLt
  have hi1 : (i 1).val < 256 := (i 1).isLt
  have hN : cfg0.N = 16 := N_0
  let t : Fin cfg0.N := ⟨2 * ((i 0).val / 8) + 1, by rw [hN]; omega⟩
  have ht : t.val = 2 * ((i 0).val / 8) + 1 := rfl
  obtain ⟨-, -, -, e3, e4⟩ := idx_facts t
  refine ⟨t, (flush0_1 t).mpr (by rw [ht]; omega), ?_⟩
  show i ∈ ((View.whole main_v1).slice (win0_1.rect t)).set
  rw [View.set_slice_whole, Rect.mem_set_unit]
  intro a
  match a with
  | ⟨0, _⟩ => show win0_1.index t 0 * 8 ≤ (i 0).val ∧ (i 0).val < win0_1.index t 0 * 8 + 8; rw [e3, ht]; omega
  | ⟨1, _⟩ => show win0_1.index t 1 * 256 ≤ (i 1).val ∧ (i 1).val < win0_1.index t 1 * 256 + 256; rw [e4]; omega

/-- So the result array ends at the column maximum of y. -/
theorem final (c : Dev nD) : (dats m 0 c).arrAt 1 cfg0.N = colmax (flat m c) :=
  (dats m 0 c).arrAt_eq_of_cover 1 (colmax (flat m c)) (flushed_eq m c) cover

end Cert.KernelIdeal.Blocks

end
-- ==== Proof.KernelRun.lean ====
/-
  The kernel's run, read: its result array is the pooled value of its argument.

  The kernel's host code flattens the two spatial axes of the input x[64, 56, 56, 256] into one of 3136 positions,
  y[b, s, c] = x[b, s / 56, s mod 56, c] (a row-major reshape), and the launch leaves the column maximum of y in the
  result array.  Position s ranges over 0 … 3135 exactly as (h, w) = (s / 56, s mod 56) ranges over the 56 · 56 spatial
  positions, so the column maximum of y has the same upper bounds as the pooled value of x.
-/
import proofs.«102553_j22754736734795_2_alg».proof.Proof.Blocks

noncomputable section

open Idealize.ShloMosaic Idealize.ShloMosaic.TcCoe Idealize.SL.Sem
open Idealize.ShloMosaic.Pipeline (Dat)

namespace Cert.KernelIdeal.KernelRun

open Cert.KernelIdeal Cert.KernelIdeal.Gen Cert.KernelIdeal.Blocks Cert.MaxPool Idealize.ShloMosaic.ValueIdx

variable (m : (ℓ : Loc nD τ sig) → Buf (Elt Ideal) ℓ) (ρ : Dev nD → PrngReg)

/-- The array the launch reads is the row-major reshape of the argument. -/
theorem flat_eq (c : Dev nD) :
    flat m c = shapeCast S64x3136x256 (m ((c : Thread nD τ).loc main_arg0) : S64x56x56x256.Idx → EReal)
      shapeCasts_S64x56x56x256_S64x3136x256 := by
  unfold flat
  dsimp only [Gen.V, Gen.hostOps0]
  after_results
  rfl

/-- The column maximum of the reshaped input is the pooled value of the input. -/
theorem colmax_reshape (x : S64x56x56x256.Idx → EReal) (h : S64x56x56x256.ShapeCasts S64x3136x256) :
    colmax (shapeCast S64x3136x256 x h) = pooled x := by
  funext j
  obtain ⟨b, c, rfl⟩ : ∃ (b : Fin 64) (c : Fin 256), j = ix2 b c := ⟨j 0, j 1, eq_ix2 j⟩
  refine eq_of_bounds fun z => ?_
  rw [colmax_le_iff, pooled_le_iff]
  show (∀ (s : ℕ) (hs : s < 3136), shapeCast S64x3136x256 x h (ix3 b ⟨s, hs⟩ c) ≤ z) ↔ ∀ (hh w : Fin 56), x (ix4 b hh w c) ≤ z
  rw [forall_flat_iff (fun hh w => x (ix4 b hh w c) ≤ z)]
  refine forall_congr' fun s => forall_congr' fun hs => ?_
  rw [shapeCast_apply x h (ix3 b ⟨s, hs⟩ c) (ix4 b ⟨s / 56, by omega⟩ ⟨s % 56, Nat.mod_lt _ (by decide)⟩ c) (by
    rw [Shape.rowMajor_val_four, Shape.rowMajor_val_three]
    show ((b.val * 56 + s / 56) * 56 + s % 56) * 256 + c.val = (b.val * 3136 + s) * 256 + c.val
    omega)]

/-- Every weakly fair execution of the kernel terminates with the pooled value of its argument in the result array
    and the argument unchanged. -/
theorem run : θ_run defs (onTc (τ := τ) (main (F := Ideal))) ⟨m, fun _ => 0, ρ⟩ fun r => ∀ c : Dev nD,
      r.2.mem ((c : Thread nD τ).loc main_v1) = pooled (m ((c : Thread nD τ).loc main_arg0))
      ∧ r.2.mem ((c : Thread nD τ).loc main_arg0) = m ((c : Thread nD τ).loc main_arg0) :=
  (θ_run defs _ _).mono (fun r h c => ⟨(h c).1.trans ((final m c).trans (by rw [flat_eq, colmax_reshape])), (h c).2⟩)
    (Value.run_blocks m ρ)

end Cert.KernelIdeal.KernelRun

end
-- ==== Proof.Reference.lean ====
/-
  The reference's reduction is the pooled value.

  The reference folds `max`, from -∞, over the set of input indices (b, h, w, c) that drop to the result index
  (b, c) when the two spatial axes are removed.  That set is exactly the 56 · 56 positions (h, w) at fixed b and c, so
  the fold has the same upper bounds as their supremum.
-/
import proofs.«102553_j22754736734795_2_alg».proof.Proof.Pooled
import proofs.«102553_j22754736734795_2_alg».proof.Proof.Gen.ReferenceIdeal.Run

noncomputable section

open Idealize.ShloMosaic Idealize.ShloMosaic.TcCoe Idealize.SL.Sem

namespace Cert.ReferenceIdeal.RefValue

open Cert.ReferenceIdeal Cert.ReferenceIdeal.Gen Cert.MaxPool Idealize.ShloMosaic.ValueIdx

/-- Dropping the spatial axes of (b, h, w, c) leaves (b, c). -/
theorem drop_ix4 (hred : S64x56x56x256.ReducesTo [1, 2] S64x256) (b : Fin 64) (h w : Fin 56) (c : Fin 256) :
    hred.drop (ix4 b h w c) = ix2 b c := by
  funext a; apply Fin.ext
  match a with
  | ⟨0, _⟩ => exact hred.drop_apply_val_of_eq (ix4 b h w c) 0 0
  | ⟨1, _⟩ => exact hred.drop_apply_val_of_eq (ix4 b h w c) 1 3

/-- The reference's `reduce max` over the spatial axes, from -∞, is the pooled value at every (b, c). -/
theorem reduce_eq_pooled (x : S64x56x56x256.Idx → EReal) (hred : S64x56x56x256.ReducesTo [1, 2] S64x256) (hu : 0 < S_.numel) :
    Host.reduce (FloatOps.maximumf (F := Ideal) (φ := .f32)) x (constant (F := Ideal) S_ .f32 0xFF800000#32) hred hu = pooled x := by
  funext j
  obtain ⟨b, c, rfl⟩ : ∃ (b : Fin 64) (c : Fin 256), j = ix2 b c := ⟨j 0, j 1, eq_ix2 j⟩
  rw [Host.reduce_eq_fold]
  refine eq_of_bounds fun z => ?_
  show Finset.fold max _ x _ ≤ z ↔ _
  rw [Finset.fold_max_le, pooled_le_iff]
  show _ ↔ ∀ (h w : Fin 56), x (ix4 b h w c) ≤ z
  constructor
  · rintro ⟨-, H⟩ h w
    exact H (ix4 b h w c) (Finset.mem_filter.mpr ⟨Finset.mem_univ _, drop_ix4 hred b h w c⟩)
  · intro H
    refine ⟨?_, fun i hi => ?_⟩
    · show Ideal.ofBits .f32 0xFF800000#32 ≤ z
      rw [negInf_eq_bot]; exact bot_le
    · have hd := (Finset.mem_filter.mp hi).2
      obtain ⟨i0, i1, i2, i3, rfl⟩ : ∃ (i0 : Fin 64) (i1 i2 : Fin 56) (i3 : Fin 256), i = ix4 i0 i1 i2 i3 :=
        ⟨i 0, i 1, i 2, i 3, eq_ix4 i⟩
      rw [drop_ix4] at hd
      have h0 : i0 = b := congrFun hd 0
      have h3 : i3 = c := congrFun hd 1
      rw [h0, h3]
      exact H i1 i2

end Cert.ReferenceIdeal.RefValue

end
-- ==== Proof.lean ====
/-
  Global max pooling over the spatial axes: a tiled kernel against `jnp.max(x, axis=(1, 2))`.

  The kernel flattens x[64, 56, 56, 256] to y[64, 3136, 256] and runs a grid of 8 batch tiles by 2 spatial tiles.  For
  each batch tile it fills an [8, 256] output block with -∞ at the first spatial tile and, at both tiles, folds the
  tile's 1568 positions into the block in four chunks of 392: each chunk's maximum over its positions, joined to the
  running maximum.  The block is written back once, after the second spatial tile.  The reference folds `max` from
  -∞ over all 56 · 56 spatial positions at once.

  On the extended reals both results are the supremum of the same 3136 entries x[b, ·, ·, c].  The proof never orders
  or regroups a fold.  It characterizes every maximum by its upper bounds: z is above an iterated `max` started from
  -∞ exactly when z is above every entry absorbed (Proof/Chunks.lean for the loop, Proof/Cases.lean for one grid
  point, Proof/Blocks.lean across the grid and for the written-back blocks, Proof/KernelRun.lean for the reshape,
  Proof/Reference.lean for the reference's fold), and two extended reals with the same upper bounds are equal
  (Proof/Pooled.lean).  The lattice laws used hold at ±∞ as well, so the finiteness precondition is not opened.

  The three frames come from the programs' runs.  The idealization rewrote nothing, so its claim is `True`.
-/
import proofs.«102553_j22754736734795_2_alg».proof.Defs
import proofs.«102553_j22754736734795_2_alg».proof.Proof.Gen.Kernel
import proofs.«102553_j22754736734795_2_alg».proof.Proof.Gen.Kernel.Frame
import proofs.«102553_j22754736734795_2_alg».proof.Proof.Gen.KernelIdeal
import proofs.«102553_j22754736734795_2_alg».proof.Proof.Gen.KernelIdeal.Frame
import proofs.«102553_j22754736734795_2_alg».proof.Proof.Gen.KernelIdeal.Value
import proofs.«102553_j22754736734795_2_alg».proof.Proof.Gen.ReferenceIdeal
import proofs.«102553_j22754736734795_2_alg».proof.Proof.Gen.ReferenceIdeal.Run
import proofs.«102553_j22754736734795_2_alg».proof.Proof.Gen.Pre_finite_inputs
import proofs.«102553_j22754736734795_2_alg».proof.Proof.KernelRun
import proofs.«102553_j22754736734795_2_alg».proof.Proof.Reference

noncomputable section

namespace Cert.Proof

open Idealize.ShloMosaic Idealize.ShloMosaic.TcCoe Idealize.SL.Sem

/-- The word-level kernel terminates without a fault and leaves its argument as it was. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is two host operations; its run keeps its argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories that agree on the argument, the kernel's result array and the reference's both end at the pooled
    value of that argument. -/
theorem algebraic : Cert.algebraic_KernelIdeal_ReferenceIdeal := by
  intro m ρ m' ρ' _ hagree
  refine ⟨fun c => Cert.MaxPool.pooled (m ((c : Thread Cert.KernelIdeal.nD Cert.KernelIdeal.τ).loc Cert.KernelIdeal.main_arg0)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.ReferenceIdeal.RefValue.reduce_eq_pooled _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
